-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x13 : Shape := ⟨3, ![64, 2048, 13]⟩
abbrev S13x256 : Shape := ⟨2, ![13, 256]⟩
abbrev S256 : Shape := ⟨1, ![256]⟩
abbrev S256x256 : Shape := ⟨2, ![256, 256]⟩
abbrev S256x80 : Shape := ⟨2, ![256, 80]⟩
abbrev S80 : Shape := ⟨1, ![80]⟩
abbrev S_ : Shape := ⟨0, ![]⟩

class Facts : Prop where
  bcast_S_S64x2048x13 : S_.BroadcastsInDim S64x2048x13 (![] : Fin 0 → Fin S64x2048x13.rank)
  reducesTo_S64x2048x13_S_d0_1_2 : S64x2048x13.ReducesTo [0, 1, 2] S_
  h_S_ : 0 < S_.numel
  bcast_S_S13x256 : S_.BroadcastsInDim S13x256 (![] : Fin 0 → Fin S13x256.rank)
  reducesTo_S13x256_S_d0_1 : S13x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x80 : S_.BroadcastsInDim S256x80 (![] : Fin 0 → Fin S256x80.rank)
  reducesTo_S256x80_S_d0_1 : S256x80.ReducesTo [0, 1] S_
  bcast_S_S80 : S_.BroadcastsInDim S80 (![] : Fin 0 → Fin S80.rank)
  reducesTo_S80_S_d0 : S80.ReducesTo [0] S_

variable [Facts]

def fn_part2 {F : FTy → Type} [FloatOps F] (main_arg7 : FVec F S256x80 .f32) (main_arg8 : FVec F S80 .f32) (main_v33 : IVec S_ 1) : IVec S_ 1 :=
  let main_v34 : FVec F S256x80 .f32 := Host.absf main_arg7
  let main_cst_12 : FVec F S_ .f32 := constant S_ .f32 0x7F800000#32
  let main_v35 : FVec F S256x80 .f32 := broadcastInDim S256x80 ![] bcast_S_S256x80 main_cst_12
  let main_v36 : IVec S256x80 1 := cmpf .olt main_v34 main_v35
  let main_c_13 : IVec S_ 1 := constantI S_ 1 1#1
  let main_v37 : IVec S_ 1 := (fun x v => Host.reduce IntOp.andi x v reducesTo_S256x80_S_d0_1 h_S_) main_v36 main_c_13
  let main_v38 : IVec S_ 1 := andi main_v33 main_v37
  let main_v39 : FVec F S80 .f32 := Host.absf main_arg8
  let main_cst_14 : FVec F S_ .f32 := constant S_ .f32 0x7F800000#32
  let main_v40 : FVec F S80 .f32 := broadcastInDim S80 ![] bcast_S_S80 main_cst_14
  let main_v41 : IVec S80 1 := cmpf .olt main_v39 main_v40
  let main_c_15 : IVec S_ 1 := constantI S_ 1 1#1
  let main_v42 : IVec S_ 1 := (fun x v => Host.reduce IntOp.andi x v reducesTo_S80_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x80 .f32) (main_arg8 : FVec F S80 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S64x2048x13 .f32) (main_arg1 : FVec F S13x256 .f32) (main_arg2 : FVec F S256 .f32) (main_arg3 : FVec F S256x256 .f32) (main_arg4 : FVec F S256 .f32) (main_arg5 : FVec F S256x256 .f32) (main_arg6 : FVec F S256 .f32) (main_arg7 : FVec F S256x80 .f32) (main_arg8 : FVec F S80 .f32) : IVec S_ 1 :=
  let main_v0 : FVec F S64x2048x13 .f32 := Host.absf main_arg0
  let main_cst : FVec F S_ .f32 := constant S_ .f32 0x7F800000#32
  let main_v1 : FVec F S64x2048x13 .f32 := broadcastInDim S64x2048x13 ![] bcast_S_S64x2048x13 main_cst
  let main_v2 : IVec S64x2048x13 1 := cmpf .olt main_v0 main_v1
  let main_c : IVec S_ 1 := constantI S_ 1 1#1
  let main_v3 : IVec S_ 1 := (fun x v => Host.reduce IntOp.andi x v reducesTo_S64x2048x13_S_d0_1_2 h_S_) main_v2 main_c
  let main_v4 : FVec F S13x256 .f32 := Host.absf main_arg1
  let main_cst_0 : FVec F S_ .f32 := constant S_ .f32 0x7F800000#32
  let main_v5 : FVec F S13x256 .f32 := broadcastInDim S13x256 ![] bcast_S_S13x256 main_cst_0
  let main_v6 : IVec S13x256 1 := cmpf .olt main_v4 main_v5
  let main_c_1 : IVec S_ 1 := constantI S_ 1 1#1
  let main_v7 : IVec S_ 1 := (fun x v => Host.reduce IntOp.andi x v reducesTo_S13x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S64x2048x13 : Shape := ⟨3, ![64, 2048, 13]⟩
abbrev S13x256 : Shape := ⟨2, ![13, 256]⟩
abbrev S256 : Shape := ⟨1, ![256]⟩
abbrev S256x256 : Shape := ⟨2, ![256, 256]⟩
abbrev S256x80 : Shape := ⟨2, ![256, 80]⟩
abbrev S80 : Shape := ⟨1, ![80]⟩
abbrev S131072x13 : Shape := ⟨2, ![131072, 13]⟩
abbrev S1x256 : Shape := ⟨2, ![1, 256]⟩
abbrev S1x80 : Shape := ⟨2, ![1, 80]⟩
abbrev S131072x80 : Shape := ⟨2, ![131072, 80]⟩
abbrev S8192x13 : Shape := ⟨2, ![8192, 13]⟩
abbrev S8192x80 : Shape := ⟨2, ![8192, 80]⟩
abbrev S8192x256 : Shape := ⟨2, ![8192, 256]⟩
abbrev S64x2048x80 : Shape := ⟨3, ![64, 2048, 80]⟩

abbrev nBuf : Space → Nat
  | .hbm => 16
  | .vmem => 12
  | .smem => 0
  | _ => 0

abbrev bufTy : (tb : Table) → Fin (tcTables nBuf tb) → BufTy
  | .hbm, ⟨0, _⟩ => ⟨S64x2048x13, .f32⟩
  | .hbm, ⟨1, _⟩ => ⟨S13x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x80, .f32⟩
  | .hbm, ⟨8, _⟩ => ⟨S80, .f32⟩
  | .hbm, ⟨9, _⟩ => ⟨S131072x13, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x80, .f32⟩
  | .hbm, ⟨14, _⟩ => ⟨S131072x80, .f32⟩
  | .hbm, ⟨15, _⟩ => ⟨S64x2048x80, .f32⟩
  | .local _ .vmem, ⟨0, _⟩ => ⟨S8192x13, .f32⟩
  | .local _ .vmem, ⟨1, _⟩ => ⟨S8192x13, .f32⟩
  | .local _ .vmem, ⟨2, _⟩ => ⟨S13x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x80, .f32⟩
  | .local _ .vmem, ⟨9, _⟩ => ⟨S1x80, .f32⟩
  | .local _ .vmem, ⟨10, _⟩ => ⟨S8192x80, .f32⟩
  | .local _ .vmem, ⟨11, _⟩ => ⟨S8192x80, .f32⟩
  | _, _ => ⟨S64x2048x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S13x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x80 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x80 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x80 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64x2048x13_S131072x13 : S64x2048x13.ShapeCasts S131072x13
  shapeCasts_S256_S1x256 : S256.ShapeCasts S1x256
  shapeCasts_S80_S1x80 : S80.ShapeCasts S1x80
  inb_S8192x13_S8192x13_0_0 : ∀ a, (![0, 0] : Fin 2 → Nat) a + S8192x13.size a ≤ S8192x13.size a
  h_S8192x13 : 0 < S8192x13.numel
  shapeCasts_S8192x13_S8192x13 : S8192x13.ShapeCasts S8192x13
  inb_S13x256_S13x256_0_0 : ∀ a, (![0, 0] : Fin 2 → Nat) a + S13x256.size a ≤ S13x256.size a
  h_S13x256 : 0 < S13x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  inb_S256x256_S256x256_0_0 : ∀ a, (![0, 0] : Fin 2 → Nat) a + S256x256.size a ≤ S256x256.size a
  h_S256x256 : 0 < S256x256.numel
  inb_S256x80_S256x80_0_0 : ∀ a, (![0, 0] : Fin 2 → Nat) a + S256x80.size a ≤ S256x80.size a
  h_S256x80 : 0 < S256x80.numel
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S8192x80 : S1x80.Broadcasts S8192x80
  inb_S8192x80_S8192x80_0_0 : ∀ a, (![0, 0] : Fin 2 → Nat) a + S8192x80.size a ≤ S8192x80.size a
  h_S8192x80 : 0 < S8192x80.numel
  shapeCasts_S131072x80_S64x2048x80 : S131072x80.ShapeCasts S64x2048x80
  dot_S8192x13_S13x256_S8192x256_1_0_0_1_n_n_wf : DotDims.WF S8192x13 S13x256 S8192x256 [1] [0] [0] [1] [] []
  dot_S8192x256_S256x256_S8192x256_1_0_0_1_n_n_wf : DotDims.WF S8192x256 S256x256 S8192x256 [1] [0] [0] [1] [] []
  dot_S8192x256_S256x80_S8192x80_1_0_0_1_n_n_wf : DotDims.WF S8192x256 S256x80 S8192x80 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x13.size a ≤ S131072x13.size a
  hwx0_0 : ∀ i : grid0.Coords, EltTy.bits .f32 = 32 ∨ (Rect.block (s := S131072x13) S8192x13.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S13x256.size a ≤ S13x256.size a
  hwx0_1 : ∀ i : grid0.Coords, EltTy.bits .f32 = 32 ∨ (Rect.block (s := S13x256) S13x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x80.size a ≤ S256x80.size a
  hwx0_7 : ∀ i : grid0.Coords, EltTy.bits .f32 = 32 ∨ (Rect.block (s := S256x80) S256x80.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x80.size a ≤ S1x80.size a
  hwx0_8 : ∀ i : grid0.Coords, EltTy.bits .f32 = 32 ∨ (Rect.block (s := S1x80) S1x80.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x80.size a ≤ S131072x80.size a
  hwx0_9 : ∀ i : grid0.Coords, EltTy.bits .f32 = 32 ∨ (Rect.block (s := S131072x80) S8192x80.size (cc0_transform_9 i) (hinb0_9 i)).WholeWords (EltTy.packing .f32)

variable [Facts₀]

def dot_S8192x13_S13x256_S8192x256_1_0_0_1_n_n : DotDims S8192x13 S13x256 S8192x256 where
  lhsContracting := [1]
  rhsContracting := [0]
  lhsNonContracting := [0]
  rhsNonContracting := [1]
  lhsBatch := []
  rhsBatch := []
  wf := dot_S8192x13_S13x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x80_S8192x80_1_0_0_1_n_n : DotDims S8192x256 S256x80 S8192x80 where
  lhsContracting := [1]
  rhsContracting := [0]
  lhsNonContracting := [0]
  rhsNonContracting := [1]
  lhsBatch := []
  rhsBatch := []
  wf := dot_S8192x256_S256x80_S8192x80_1_0_0_1_n_n_wf

abbrev win0_0 : Pipeline.Window sig grid0 :=
  Pipeline.Window.ofSpec (Memref.whole main_v0) S8192x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S13x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x80.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x80.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S8192x80.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x2048x13 : Shape := ⟨3, ![64, 2048, 13]⟩
abbrev S13x256 : Shape := ⟨2, ![13, 256]⟩
abbrev S256 : Shape := ⟨1, ![256]⟩
abbrev S256x256 : Shape := ⟨2, ![256, 256]⟩
abbrev S256x80 : Shape := ⟨2, ![256, 80]⟩
abbrev S80 : Shape := ⟨1, ![80]⟩
abbrev S64x2048x256 : Shape := ⟨3, ![64, 2048, 256]⟩
abbrev S1x1x256 : Shape := ⟨3, ![1, 1, 256]⟩
abbrev S_ : Shape := ⟨0, ![]⟩
abbrev S64x2048x80 : Shape := ⟨3, ![64, 2048, 80]⟩
abbrev S1x1x80 : Shape := ⟨3, ![1, 1, 80]⟩

abbrev nBuf : Space → Nat
  | .hbm => 34
  | .vmem => 0
  | .smem => 0
  | _ => 0

abbrev bufTy : (tb : Table) → Fin (tcTables nBuf tb) → BufTy
  | .hbm, ⟨0, _⟩ => ⟨S64x2048x13, .f32⟩
  | .hbm, ⟨1, _⟩ => ⟨S13x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x80, .f32⟩
  | .hbm, ⟨8, _⟩ => ⟨S80, .f32⟩
  | .hbm, ⟨9, _⟩ => ⟨S64x2048x256, .f32⟩
  | .hbm, ⟨10, _⟩ => ⟨S1x1x256, .f32⟩
  | .hbm, ⟨11, _⟩ => ⟨S64x2048x256, .f32⟩
  | .hbm, ⟨12, _⟩ => ⟨S64x2048x256, .f32⟩
  | .hbm, ⟨13, _⟩ => ⟨S_, .f32⟩
  | .hbm, ⟨14, _⟩ => ⟨S64x2048x256, .f32⟩
  | .hbm, ⟨15, _⟩ => ⟨S64x2048x256, .f32⟩
  | .hbm, ⟨16, _⟩ => ⟨S64x2048x256, .f32⟩
  | .hbm, ⟨17, _⟩ => ⟨S1x1x256, .f32⟩
  | .hbm, ⟨18, _⟩ => ⟨S64x2048x256, .f32⟩
  | .hbm, ⟨19, _⟩ => ⟨S64x2048x256, .f32⟩
  | .hbm, ⟨20, _⟩ => ⟨S_, .f32⟩
  | .hbm, ⟨21, _⟩ => ⟨S64x2048x256, .f32⟩
  | .hbm, ⟨22, _⟩ => ⟨S64x2048x256, .f32⟩
  | .hbm, ⟨23, _⟩ => ⟨S64x2048x256, .f32⟩
  | .hbm, ⟨24, _⟩ => ⟨S1x1x256, .f32⟩
  | .hbm, ⟨25, _⟩ => ⟨S64x2048x256, .f32⟩
  | .hbm, ⟨26, _⟩ => ⟨S64x2048x256, .f32⟩
  | .hbm, ⟨27, _⟩ => ⟨S_, .f32⟩
  | .hbm, ⟨28, _⟩ => ⟨S64x2048x256, .f32⟩
  | .hbm, ⟨29, _⟩ => ⟨S64x2048x256, .f32⟩
  | .hbm, ⟨30, _⟩ => ⟨S64x2048x80, .f32⟩
  | .hbm, ⟨31, _⟩ => ⟨S1x1x80, .f32⟩
  | .hbm, ⟨32, _⟩ => ⟨S64x2048x80, .f32⟩
  | .hbm, ⟨33, _⟩ => ⟨S64x2048x80, .f32⟩
  | _, _ => ⟨S64x2048x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S64x2048x256_0_1_2 : S1x1x256.BroadcastsInDim S64x2048x256 (![0, 1, 2] : Fin 3 → Fin S64x2048x256.rank)
  bcast_S_S64x2048x256 : S_.BroadcastsInDim S64x2048x256 (![] : Fin 0 → Fin S64x2048x256.rank)
  bcast_S80_S1x1x80_2 : S80.BroadcastsInDim S1x1x80 (![2] : Fin 1 → Fin S1x1x80.rank)
  bcast_S1x1x80_S64x2048x80_0_1_2 : S1x1x80.BroadcastsInDim S64x2048x80 (![0, 1, 2] : Fin 3 → Fin S64x2048x80.rank)
  dot_S64x2048x13_S13x256_S64x2048x256_2_0_01_1_n_n_wf : DotDims.WF S64x2048x13 S13x256 S64x2048x256 [2] [0] [0, 1] [1] [] []
  dot_S64x2048x256_S256x256_S64x2048x256_2_0_01_1_n_n_wf : DotDims.WF S64x2048x256 S256x256 S64x2048x256 [2] [0] [0, 1] [1] [] []
  dot_S64x2048x256_S256x80_S64x2048x80_2_0_01_1_n_n_wf : DotDims.WF S64x2048x256 S256x80 S64x2048x80 [2] [0] [0, 1] [1] [] []

variable [Facts₀]

def dot_S64x2048x13_S13x256_S64x2048x256_2_0_01_1_n_n : DotDims S64x2048x13 S13x256 S64x2048x256 where
  lhsContracting := [2]
  rhsContracting := [0]
  lhsNonContracting := [0, 1]
  rhsNonContracting := [1]
  lhsBatch := []
  rhsBatch := []
  wf := dot_S64x2048x13_S13x256_S64x2048x256_2_0_01_1_n_n_wf
def dot_S64x2048x256_S256x256_S64x2048x256_2_0_01_1_n_n : DotDims S64x2048x256 S256x256 S64x2048x256 where
  lhsContracting := [2]
  rhsContracting := [0]
  lhsNonContracting := [0, 1]
  rhsNonContracting := [1]
  lhsBatch := []
  rhsBatch := []
  wf := dot_S64x2048x256_S256x256_S64x2048x256_2_0_01_1_n_n_wf
def dot_S64x2048x256_S256x80_S64x2048x80_2_0_01_1_n_n : DotDims S64x2048x256 S256x80 S64x2048x80 where
  lhsContracting := [2]
  rhsContracting := [0]
  lhsNonContracting := [0, 1]
  rhsNonContracting := [1]
  lhsBatch := []
  rhsBatch := []
  wf := dot_S64x2048x256_S256x80_S64x2048x80_2_0_01_1_n_n_wf

class Facts : Prop extends Facts₀ where

variable [Facts]
-- ==== Proof.MlpSpec.lean ====
/-
  The function both programs compute, stated with no program in sight.

  A dense layer sends a row `h` of `K` numbers to the row whose entry `j` is the inner product of `h` with column
  `j` of a `K × N` weight matrix, plus the bias at `j`. The rectifier is the maximum with the float zero. The
  perceptron on one row of 13 features is three rectified dense layers of width 256 followed by one plain dense
  layer of width 80; every row of the input is sent through it independently of every other row. The result
  array of shape [64, 2048, 80] holds, at `(b, s, o)`, entry `o` of the perceptron applied to row `(b, s)` of the
  input. All arithmetic is on the extended reals; the zero is kept as the float word it is printed as, so that
  the two sides meet on the same term and the word is never evaluated.
-/
import Idealize.ShloMosaic.Lib.ValueIdx
import Idealize.ShloMosaic.PureOps.Ideal

noncomputable section

namespace Cert.Mlp

open Idealize.ShloMosaic Idealize.ShloMosaic.ValueIdx

/-- One dense layer on a row: entry `j` is `(∑ k, h k · W k j) + b j`. -/
def dense {K N : ℕ} (W : Fin K → Fin N → EReal) (b : Fin N → EReal) (h : Fin K → EReal) (j : Fin N) : EReal :=
  (∑ k : Fin K, h k * W k j) + b j

/-- The rectifier: the maximum with the float zero. -/
def relu (v : EReal) : EReal := max v (Ideal.ofBits .f32 0x00000000#32)

/-- The perceptron on one row: 13 → 256 → 256 → 256 → 80, rectified after each of the first three layers. -/
def mlpRow (W1 : Fin 13 → Fin 256 → EReal) (b1 : Fin 256 → EReal) (W2 : Fin 256 → Fin 256 → EReal) (b2 : Fin 256 → EReal)
    (W3 : Fin 256 → Fin 256 → EReal) (b3 : Fin 256 → EReal) (W4 : Fin 256 → Fin 80 → EReal) (b4 : Fin 80 → EReal)
    (x : Fin 13 → EReal) : Fin 80 → EReal :=
  dense W4 b4 fun k3 => relu (dense W3 b3 (fun k2 => relu (dense W2 b2 (fun k1 => relu (dense W1 b1 x k1)) k2)) k3)

/-- A rank-2 array as a matrix of its entries. -/
abbrev mat {K N : ℕ} (W : (⟨2, ![K, N]⟩ : Shape).Idx → EReal) : Fin K → Fin N → EReal := fun k j => W (ix2 k j)
/-- A rank-1 array as the row of its entries. -/
abbrev vec {N : ℕ} (b : (⟨1, ![N]⟩ : Shape).Idx → EReal) : Fin N → EReal := fun j => b (ix1 j)
/-- A one-row rank-2 array as that row. -/
abbrev row {N : ℕ} (b : (⟨2, ![1, N]⟩ : Shape).Idx → EReal) : Fin N → EReal := fun j => b (ix2 (0 : Fin 1) j)

/-- The result array: at `(b, s, o)`, entry `o` of the perceptron on row `(b, s)` of the input. -/
def result (x : (⟨3, ![64, 2048, 13]⟩ : Shape).Idx → EReal)
    (W1 : (⟨2, ![13, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 256]⟩ : Shape).Idx → EReal) (b3 : (⟨1, ![256]⟩ : Shape).Idx → EReal)
    (W4 : (⟨2, ![256, 80]⟩ : Shape).Idx → EReal) (b4 : (⟨1, ![80]⟩ : Shape).Idx → EReal) :
    (⟨3, ![64, 2048, 80]⟩ : Shape).Idx → EReal :=
  fun i => mlpRow (mat W1) (vec b1) (mat W2) (vec b2) (mat W3) (vec b3) (mat W4) (vec b4)
    (fun k => x (ix3 (n0 := 64) (n1 := 2048) (n2 := 13) (i 0) (i 1) k)) (i 2)

/-- The same perceptron applied to the rows of the input flattened to [131072, 13], the biases as one-row
    arrays: the [131072, 80] array whose entry `(r, o)` is entry `o` of the perceptron on row `r`. -/
def flat (x : (⟨2, ![131072, 13]⟩ : Shape).Idx → EReal)
    (W1 : (⟨2, ![13, 256]⟩ : Shape).Idx → EReal) (b1 : (⟨2, ![1, 256]⟩ : Shape).Idx → EReal)
    (W2 : (⟨2, ![256, 256]⟩ : Shape).Idx → EReal) (b2 : (⟨2, ![1, 256]⟩ : Shape).Idx → EReal)
    (W3 : (⟨2, ![256, 256]⟩ : Shape).Idx → EReal) (b3 : (⟨2, ![1, 256]⟩ : Shape).Idx → EReal)
    (W4 : (⟨2, ![256, 80]⟩ : Shape).Idx → EReal) (b4 : (⟨2, ![1, 80]⟩ : Shape).Idx → EReal) :
    (⟨2, ![131072, 80]⟩ : Shape).Idx → EReal :=
  fun i => mlpRow (mat W1) (row b1) (mat W2) (row b2) (mat W3) (row b3) (mat W4) (row b4)
    (fun k => x (ix2 (n0 := 131072) (n1 := 13) (i 0) k)) (i 1)

end Cert.Mlp

end
-- ==== Proof.RefResult.lean ====
/-
  The reference computes the perceptron row by row.

  The reference is four `dot_general`s over the last axis of a [64, 2048, ·] array, each followed by a bias
  broadcast over the first two axes, the first three followed by the maximum with a zero array. Its operations
  are read one at a time at an index by the generated read-at-an-index lemmas. At `(b, s, j)` each layer's
  contraction reads its left operand at `(b, s, k)` and its right operand at `(k, j)`, and the twice-broadcast bias
  reads the bias vector at `j`: a dense layer on row `(b, s)`. Composing the four layers gives the perceptron of the
  specification at every index.
-/
import proofs.«145923_j16054587752846_2_alg».proof.Proof.Gen.ReferenceIdeal.Read
import proofs.«145923_j16054587752846_2_alg».proof.Proof.MlpSpec
import Idealize.ShloMosaic.Lib.ValueIdx

noncomputable section

namespace Cert.ReferenceIdeal.RefValue

open Idealize.ShloMosaic Idealize.ShloMosaic.ValueIdx Cert.ReferenceIdeal Cert.ReferenceIdeal.Read Cert.Mlp

variable (b : Fin 64) (s : Fin 2048)

/-! ## Where each layer reads its operands -/

theorem lidx0 (j : Fin 256) (k : Fin 13) : lidx_main_v0 (ix3 b s j) k = ix3 b s k :=
  funext fun a => by match a with | ⟨0, _⟩ => rfl | ⟨1, _⟩ => rfl | ⟨2, _⟩ => rfl
theorem ridx0 (j : Fin 256) (k : Fin 13) : ridx_main_v0 (ix3 b s j) k = ix2 k j :=
  funext fun a => by match a with | ⟨0, _⟩ => rfl | ⟨1, _⟩ => rfl
theorem bidx0 (j : Fin 256) : idx_main_v1 (idx_main_v2 (ix3 b s j)) = ix1 j :=
  funext fun a => by match a with | ⟨0, _⟩ => rfl

theorem lidx5 (j : Fin 256) (k : Fin 256) : lidx_main_v5 (ix3 b s j) k = ix3 b s k :=
  funext fun a => by match a with | ⟨0, _⟩ => rfl | ⟨1, _⟩ => rfl | ⟨2, _⟩ => rfl
theorem ridx5 (j : Fin 256) (k : Fin 256) : ridx_main_v5 (ix3 b s j) k = ix2 k j :=
  funext fun a => by match a with | ⟨0, _⟩ => rfl | ⟨1, _⟩ => rfl
theorem bidx5 (j : Fin 256) : idx_main_v6 (idx_main_v7 (ix3 b s j)) = ix1 j :=
  funext fun a => by match a with | ⟨0, _⟩ => rfl

theorem lidx10 (j : Fin 256) (k : Fin 256) : lidx_main_v10 (ix3 b s j) k = ix3 b s k :=
  funext fun a => by match a with | ⟨0, _⟩ => rfl | ⟨1, _⟩ => rfl | ⟨2, _⟩ => rfl
theorem ridx10 (j : Fin 256) (k : Fin 256) : ridx_main_v10 (ix3 b s j) k = ix2 k j :=
  funext fun a => by match a with | ⟨0, _⟩ => rfl | ⟨1, _⟩ => rfl
theorem bidx10 (j : Fin 256) : idx_main_v11 (idx_main_v12 (ix3 b s j)) = ix1 j :=
  funext fun a => by match a with | ⟨0, _⟩ => rfl

theorem lidx15 (j : Fin 80) (k : Fin 256) : lidx_main_v15 (ix3 b s j) k = ix3 b s k :=
  funext fun a => by match a with | ⟨0, _⟩ => rfl | ⟨1, _⟩ => rfl | ⟨2, _⟩ => rfl
theorem ridx15 (j : Fin 80) (k : Fin 256) : ridx_main_v15 (ix3 b s j) k = ix2 k j :=
  funext fun a => by match a with | ⟨0, _⟩ => rfl | ⟨1, _⟩ => rfl
theorem bidx15 (j : Fin 80) : idx_main_v16 (idx_main_v17 (ix3 b s j)) = ix1 j :=
  funext fun a => by match a with | ⟨0, _⟩ => rfl

/-! ## The layers -/

variable (x0 : (⟨S64x2048x13, .f32⟩ : BufTy).Contents (Elt Ideal)) (x1 : (⟨S13x256, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x80, .f32⟩ : BufTy).Contents (Elt Ideal))
  (x8 : (⟨S80, .f32⟩ : BufTy).Contents (Elt Ideal))

/-- The first rectified layer at `(b, s, j)`: the dense layer on row `(b, s)` of the input, rectified. -/
theorem layer1 (j : Fin 256) :
    val_main_v4 (F := Ideal) x0 x1 x2 (ix3 b s j) = relu (dense (mat x1) (vec x2) (fun k => x0 (ix3 b s k)) j) := by
  rw [val_main_v4_apply, val_main_v3_apply, val_main_v0_apply, val_main_v2_apply, val_main_v1_apply,
    val_main_call0_v0_apply, val_main_call0_cst_apply]
  simp only [lidx0, ridx0, bidx0]
  rfl

/-- The second rectified layer at `(b, s, j)`: the dense layer on row `(b, s)` of the first layer's output, rectified. -/
theorem layer2 (j : Fin 256) :
    val_main_v9 (F := Ideal) x0 x1 x2 x3 x4 (ix3 b s j)
      = relu (dense (mat x3) (vec x4) (fun k => val_main_v4 (F := Ideal) x0 x1 x2 (ix3 b s k)) j) := by
  rw [val_main_v9_apply, val_main_v8_apply, val_main_v5_apply, val_main_v7_apply, val_main_v6_apply,
    val_main_call1_v0_apply, val_main_call1_cst_apply]
  simp only [lidx5, ridx5, bidx5]
  rfl

/-- The third rectified layer at `(b, s, j)`. -/
theorem layer3 (j : Fin 256) :
    val_main_v14 (F := Ideal) x0 x1 x2 x3 x4 x5 x6 (ix3 b s j)
      = relu (dense (mat x5) (vec x6) (fun k => val_main_v9 (F := Ideal) x0 x1 x2 x3 x4 (ix3 b s k)) j) := by
  rw [val_main_v14_apply, val_main_v13_apply, val_main_v10_apply, val_main_v12_apply, val_main_v11_apply,
    val_main_call2_v0_apply, val_main_call2_cst_apply]
  simp only [lidx10, ridx10, bidx10]
  rfl

/-- The last, plain layer at `(b, s, j)`. -/
theorem layer4 (j : Fin 80) :
    val_main_v18 (F := Ideal) x0 x1 x2 x3 x4 x5 x6 x7 x8 (ix3 b s j)
      = dense (mat x7) (vec x8) (fun k => val_main_v14 (F := Ideal) x0 x1 x2 x3 x4 x5 x6 (ix3 b s k)) j := by
  rw [val_main_v18_apply, val_main_v15_apply, val_main_v17_apply, val_main_v16_apply]
  simp only [lidx15, ridx15, bidx15]
  rfl

/-- The reference's result is the specification's, at every index. -/
theorem result_eq :
    val_main_v18 (F := Ideal) x0 x1 x2 x3 x4 x5 x6 x7 x8 = result x0 x1 x2 x3 x4 x5 x6 x7 x8 := by
  funext i
  obtain ⟨b, s, o, rfl⟩ : ∃ (b : Fin 64) (s : Fin 2048) (o : Fin 80), i = ix3 b s o := ⟨i 0, i 1, i 2, eq_ix3 i⟩
  rw [layer4]
  unfold result mlpRow
  refine congrArg (fun f => dense (mat x7) (vec x8) f o) (funext fun k3 => ?_)
  rw [layer3]
  refine congrArg (fun f => relu (dense (mat x5) (vec x6) f k3)) (funext fun k2 => ?_)
  rw [layer2]
  refine congrArg (fun f => relu (dense (mat x3) (vec x4) f k2)) (funext fun k1 => ?_)
  exact layer1 b s x0 x1 x2 k1

end Cert.ReferenceIdeal.RefValue

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.KernelPayload.lean ====
/-
  The kernel body's arithmetic at one entry of its output block.

  The body loads a block of 8192 input rows, the four weight matrices and the four one-row biases, and computes
  four matrix products, each accumulated into a zero block, each followed by the bias row broadcast down the
  8192 rows, the first three followed by the maximum with a zero block. Read at entry `(p, o)` of the output block
  over the extended reals this is entry `o` of the perceptron applied to row `p` of the input block: a matrix product
  into a zero accumulator is the plain sum over the contracted axis, the broadcast bias reads the one row at the
  column, and the pointwise sum and maximum act on the entries.
-/
import proofs.«145923_j16054587752846_2_alg».proof.Proof.Gen.KernelIdeal.Skeleton
import proofs.«145923_j16054587752846_2_alg».proof.Proof.MlpSpec
import proofs.«145923_j16054587752846_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.Mlp

variable {M K N : ℕ}

/-- One layer of the body at entry `(p, j)`: the product of an `[M, K]` block with a `[K, N]` matrix into the zero
    block, plus the one-row bias (cast to its own shape, then broadcast down the rows), is the dense layer on
    row `p` of the block. -/
theorem layer_apply (d : DotDims ⟨2, ![M, K]⟩ ⟨2, ![K, N]⟩ ⟨2, ![M, N]⟩) (hd : d = DotDims.plain M K N)
    (prec : Option ContractPrecision) (h : FVec Ideal ⟨2, ![M, K]⟩ .f32) (W : FVec Ideal ⟨2, ![K, N]⟩ .f32)
    (bias : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (j : Fin N) :
    addf (matmul d prec h W (constant (F := Ideal) ⟨2, ![M, N]⟩ .f32 0x00000000#32))
        (broadcastTo ⟨2, ![M, N]⟩ (shapeCast ⟨2, ![1, N]⟩ bias hc) hb) (ix2 p j)
      = dense (mat W) (row bias) (fun k => h (ix2 p k)) j := by
  rw [addf_apply, shapeCast_self, broadcastTo_1b_ab_apply]
  exact congrArg (· + bias (ix2 (0 : Fin 1) j)) (Cert.PlainDot.matmul_zero_apply d hd prec h W p j)

/-- The maximum with the splat of the float zero, at an entry: the rectifier of the entry. -/
theorem relu_apply {s : Shape} (v : FVec Ideal s .f32) (i : s.Idx) :
    maximumf v (broadcast s (Scalar.ofBits (F := Ideal) .f32 0x00000000#32)) i = relu (v i) := rfl

/-- The body's result block at entry `(p, o)`: entry `o` of the perceptron on row `p` of the input block. -/
theorem pay_apply (x0 : Vec Ideal S8192x13 .f32) (x1 : Vec Ideal S13x256 .f32) (x2 : Vec Ideal S1x256 .f32)
    (x3 : Vec Ideal S256x256 .f32) (x4 : Vec Ideal S1x256 .f32) (x5 : Vec Ideal S256x256 .f32) (x6 : Vec Ideal S1x256 .f32)
    (x7 : Vec Ideal S256x80 .f32) (x8 : Vec Ideal S1x80 .f32) (p : Fin 8192) (o : Fin 80) :
    k0_pay1 (F := Ideal) x0 x1 x2 x3 x4 x5 x6 x7 x8 (ix2 p o)
      = mlpRow (mat x1) (row x2) (mat x3) (row x4) (mat x5) (row x6) (mat x7) (row x8) (fun k => x0 (ix2 p k)) o := by
  unfold k0_pay1 mlpRow
  refine (layer_apply dot_S8192x256_S256x80_S8192x80_1_0_0_1_n_n rfl _ _ _ _ _ _ p o).trans ?_
  refine congrArg (fun f => dense (mat x7) (row x8) f o) (funext fun k3 => ?_)
  refine (relu_apply _ (ix2 p k3)).trans (congrArg relu ?_)
  refine (layer_apply dot_S8192x256_S256x256_S8192x256_1_0_0_1_n_n rfl _ _ _ _ _ _ p k3).trans ?_
  refine congrArg (fun f => dense (mat x5) (row x6) f k3) (funext fun k2 => ?_)
  refine (relu_apply _ (ix2 p k2)).trans (congrArg relu ?_)
  refine (layer_apply dot_S8192x256_S256x256_S8192x256_1_0_0_1_n_n rfl _ _ _ _ _ _ p k2).trans ?_
  refine congrArg (fun f => dense (mat x3) (row x4) f k2) (funext fun k1 => ?_)
  refine (relu_apply _ (ix2 p k1)).trans (congrArg relu ?_)
  refine (layer_apply dot_S8192x13_S13x256_S8192x256_1_0_0_1_n_n rfl _ _ _ _ _ _ p k1).trans ?_
  rw [shapeCast_self]

end Cert.KernelIdeal.Payload

end
-- ==== Proof.KernelArray.lean ====
/-
  From the blocks the grid points write back to the whole output array, and through the reshapes around the
  region.

  The grid has 16 points. Point `t` reads rows `8192·t … 8192·t + 8191` of the input flattened to [131072, 13] and
  the whole of every weight matrix and bias row (their index maps are constant), and writes back rows
  `8192·t … 8192·t + 8191` of the [131072, 80] output. Since each output row is the perceptron of the input row with
  the same number, what point `t` writes back is block `t` of ONE array, the perceptron applied row by row; the 16
  blocks tile the output, so the output array ends as that array. Before the region the input is reshaped from
  [64, 2048, 13] to [131072, 13] (row `2048·b + s` is row `(b, s)`) and each bias from [n] to [1, n]; after it the
  output is reshaped from [131072, 80] to [64, 2048, 80]. Read at `(b, s, o)` the result is the specification's.
-/
import proofs.«145923_j16054587752846_2_alg».proof.Proof.Gen.KernelIdeal.Frame
import proofs.«145923_j16054587752846_2_alg».proof.Proof.KernelPayload
import proofs.«145923_j16054587752846_2_alg».proof.Proof.MlpSpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Array

open Cert.KernelIdeal Cert.KernelIdeal.Gen Cert.Mlp

variable (m : (ℓ : Loc nD τ sig) → Buf (Elt Ideal) ℓ) (ρ : Dev nD → PrngReg)

theorem hz : (![0, 0] : Fin 2 → Nat) = fun _ => 0 := funext fun a => by fin_cases a <;> rfl

/-! ## The index maps -/

/-- The printed index maps, decided over the grid: the input rows' window and the output's move with the point
    along the row axis; every other window stays at block (0, 0). -/
theorem idx_facts : ∀ t : Fin cfg0.N, win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The blocks the body reads -/

/-- Row `p` of the input block at point `t` is row `8192·t + p` of the flattened input. -/
theorem iblk0_apply (c : Dev nD) (t : Fin cfg0.N) (p : Fin 8192) (k : Fin 13) (r : Fin 131072) (hr : r.val = t.val * 8192 + p.val) :
    (iblk m c 0 t : Vec Ideal S8192x13 .f32) (ix2 p k) = (V m c main_v0 : S131072x13.Idx → EReal) (ix2 r k) := by
  obtain ⟨e00, e01, e90, e91, f10, f11, f20, f21, f30, f31, f40, f41, f50, f51, f60, f61, f70, f71, f80, f81⟩ := idx_facts t
  unfold iblk
  rw [View.read_apply]
  show V m c main_v0 _ = V m c main_v0 _
  congr 1
  funext a
  apply Fin.ext
  match a with
  | ⟨0, _⟩ => show win0_0.index t (0 : Fin 2) * 8192 + 1 * p.val = r.val; rw [e00, hr]; omega
  | ⟨1, _⟩ => show win0_0.index t (1 : Fin 2) * 13 + 1 * k.val = k.val; rw [e01]; omega

/-- Window 1's index map is constant: its block at every point is the whole array. -/
theorem iblk1_eq (c : Dev nD) (t : Fin cfg0.N) : (iblk m c 1 t : Vec Ideal S13x256 .f32) = V m c main_arg1 := by
  obtain ⟨e00, e01, e90, e91, f10, f11, f20, f21, f30, f31, f40, f41, f50, f51, f60, f61, f70, f71, f80, f81⟩ := idx_facts t
  funext y
  unfold iblk
  rw [View.read_apply]
  show V m c main_arg1 _ = V m c main_arg1 y
  congr 1
  funext a
  apply Fin.ext
  match a with
  | ⟨0, _⟩ => show win0_1.index t (0 : Fin 2) * 13 + 1 * (y 0).val = (y 0).val; rw [f10]; omega
  | ⟨1, _⟩ => show win0_1.index t (1 : Fin 2) * 256 + 1 * (y 1).val = (y 1).val; rw [f11]; omega

/-- Window 2's index map is constant: its block at every point is the whole array. -/
theorem iblk2_eq (c : Dev nD) (t : Fin cfg0.N) : (iblk m c 2 t : Vec Ideal S1x256 .f32) = V m c main_v1 := by
  obtain ⟨e00, e01, e90, e91, f10, f11, f20, f21, f30, f31, f40, f41, f50, f51, f60, f61, f70, f71, f80, f81⟩ := idx_facts t
  funext y
  unfold iblk
  rw [View.read_apply]
  show V m c main_v1 _ = V m c main_v1 y
  congr 1
  funext a
  apply Fin.ext
  match a with
  | ⟨0, _⟩ => show win0_2.index t (0 : Fin 2) * 1 + 1 * (y 0).val = (y 0).val; rw [f20]; omega
  | ⟨1, _⟩ => show win0_2.index t (1 : Fin 2) * 256 + 1 * (y 1).val = (y 1).val; rw [f21]; omega

/-- Window 3's index map is constant: its block at every point is the whole array. -/
theorem iblk3_eq (c : Dev nD) (t : Fin cfg0.N) : (iblk m c 3 t : Vec Ideal S256x256 .f32) = V m c main_arg3 := by
  obtain ⟨e00, e01, e90, e91, f10, f11, f20, f21, f30, f31, f40, f41, f50, f51, f60, f61, f70, f71, f80, f81⟩ := idx_facts t
  funext y
  unfold iblk
  rw [View.read_apply]
  show V m c main_arg3 _ = V m c main_arg3 y
  congr 1
  funext a
  apply Fin.ext
  match a with
  | ⟨0, _⟩ => show win0_3.index t (0 : Fin 2) * 256 + 1 * (y 0).val = (y 0).val; rw [f30]; omega
  | ⟨1, _⟩ => show win0_3.index t (1 : Fin 2) * 256 + 1 * (y 1).val = (y 1).val; rw [f31]; omega

/-- Window 4's index map is constant: its block at every point is the whole array. -/
theorem iblk4_eq (c : Dev nD) (t : Fin cfg0.N) : (iblk m c 4 t : Vec Ideal S1x256 .f32) = V m c main_v2 := by
  obtain ⟨e00, e01, e90, e91, f10, f11, f20, f21, f30, f31, f40, f41, f50, f51, f60, f61, f70, f71, f80, f81⟩ := idx_facts t
  funext y
  unfold iblk
  rw [View.read_apply]
  show V m c main_v2 _ = V m c main_v2 y
  congr 1
  funext a
  apply Fin.ext
  match a with
  | ⟨0, _⟩ => show win0_4.index t (0 : Fin 2) * 1 + 1 * (y 0).val = (y 0).val; rw [f40]; omega
  | ⟨1, _⟩ => show win0_4.index t (1 : Fin 2) * 256 + 1 * (y 1).val = (y 1).val; rw [f41]; omega

/-- Window 5's index map is constant: its block at every point is the whole array. -/
theorem iblk5_eq (c : Dev nD) (t : Fin cfg0.N) : (iblk m c 5 t : Vec Ideal S256x256 .f32) = V m c main_arg5 := by
  obtain ⟨e00, e01, e90, e91, f10, f11, f20, f21, f30, f31, f40, f41, f50, f51, f60, f61, f70, f71, f80, f81⟩ := idx_facts t
  funext y
  unfold iblk
  rw [View.read_apply]
  show V m c main_arg5 _ = V m c main_arg5 y
  congr 1
  funext a
  apply Fin.ext
  match a with
  | ⟨0, _⟩ => show win0_5.index t (0 : Fin 2) * 256 + 1 * (y 0).val = (y 0).val; rw [f50]; omega
  | ⟨1, _⟩ => show win0_5.index t (1 : Fin 2) * 256 + 1 * (y 1).val = (y 1).val; rw [f51]; omega

/-- Window 6's index map is constant: its block at every point is the whole array. -/
theorem iblk6_eq (c : Dev nD) (t : Fin cfg0.N) : (iblk m c 6 t : Vec Ideal S1x256 .f32) = V m c main_v3 := by
  obtain ⟨e00, e01, e90, e91, f10, f11, f20, f21, f30, f31, f40, f41, f50, f51, f60, f61, f70, f71, f80, f81⟩ := idx_facts t
  funext y
  unfold iblk
  rw [View.read_apply]
  show V m c main_v3 _ = V m c main_v3 y
  congr 1
  funext a
  apply Fin.ext
  match a with
  | ⟨0, _⟩ => show win0_6.index t (0 : Fin 2) * 1 + 1 * (y 0).val = (y 0).val; rw [f60]; omega
  | ⟨1, _⟩ => show win0_6.index t (1 : Fin 2) * 256 + 1 * (y 1).val = (y 1).val; rw [f61]; omega

/-- Window 7's index map is constant: its block at every point is the whole array. -/
theorem iblk7_eq (c : Dev nD) (t : Fin cfg0.N) : (iblk m c 7 t : Vec Ideal S256x80 .f32) = V m c main_arg7 := by
  obtain ⟨e00, e01, e90, e91, f10, f11, f20, f21, f30, f31, f40, f41, f50, f51, f60, f61, f70, f71, f80, f81⟩ := idx_facts t
  funext y
  unfold iblk
  rw [View.read_apply]
  show V m c main_arg7 _ = V m c main_arg7 y
  congr 1
  funext a
  apply Fin.ext
  match a with
  | ⟨0, _⟩ => show win0_7.index t (0 : Fin 2) * 256 + 1 * (y 0).val = (y 0).val; rw [f70]; omega
  | ⟨1, _⟩ => show win0_7.index t (1 : Fin 2) * 80 + 1 * (y 1).val = (y 1).val; rw [f71]; omega

/-- Window 8's index map is constant: its block at every point is the whole array. -/
theorem iblk8_eq (c : Dev nD) (t : Fin cfg0.N) : (iblk m c 8 t : Vec Ideal S1x80 .f32) = V m c main_v4 := by
  obtain ⟨e00, e01, e90, e91, f10, f11, f20, f21, f30, f31, f40, f41, f50, f51, f60, f61, f70, f71, f80, f81⟩ := idx_facts t
  funext y
  unfold iblk
  rw [View.read_apply]
  show V m c main_v4 _ = V m c main_v4 y
  congr 1
  funext a
  apply Fin.ext
  match a with
  | ⟨0, _⟩ => show win0_8.index t (0 : Fin 2) * 1 + 1 * (y 0).val = (y 0).val; rw [f80]; omega
  | ⟨1, _⟩ => show win0_8.index t (1 : Fin 2) * 80 + 1 * (y 1).val = (y 1).val; rw [f81]; omega

/-! ## The output array -/

/-- The output array as the region leaves it: the perceptron applied to each row of the flattened input, over the
    arrays as the region finds them. -/
def arr9 (c : Dev nD) : S131072x80.Idx → EReal :=
  flat (V m c main_v0) (V m c main_arg1) (V m c main_v1) (V m c main_arg3) (V m c main_v2) (V m c main_arg5)
    (V m c main_v3) (V m c main_arg7) (V m c main_v4)

/-- What point `t` writes back is block `t` of that array. -/
theorem flushed9_eq (c : Dev nD) (t : Fin cfg0.N) :
    (dats m 0 c).flushed 9 t = ((cfg0.win 9).blk t).view.read (Elt Ideal) (arr9 m c) := by
  show (cfg0.win 9).cut (grid0.coords t) ((dats m 0 c).after 9 t) = _
  rw [after0_9]
  unfold out0_9
  rw [View.canon_unit_zero hz]
  simp only [View.ld_unit_zero (S := S8192x13) hz, View.ld_unit_zero (S := S13x256) hz, View.ld_unit_zero (S := S1x256) hz,
    View.ld_unit_zero (S := S256x256) hz, View.ld_unit_zero (S := S256x80) hz, View.ld_unit_zero (S := S1x80) hz]
  obtain ⟨e00, e01, e90, e91, f10, f11, f20, f21, f30, f31, f40, f41, f50, f51, f60, f61, f70, f71, f80, f81⟩ := idx_facts t
  refine funext fun j => ?_
  obtain ⟨p, o, rfl⟩ : ∃ (p : Fin 8192) (o : Fin 80), j = ix2 p o := ⟨j 0, j 1, eq_ix2 (n0 := 8192) (n1 := 80) j⟩
  have hN : cfg0.N = 16 := N_0
  have hr : t.val * 8192 + p.val < 131072 := by have := t.isLt; omega
  have hemb : ((cfg0.win 9).blk t).view.emb (ix2 p o) = ix2 (⟨t.val * 8192 + p.val, hr⟩ : Fin 131072) o := by
    funext a
    apply Fin.ext
    match a with
    | ⟨0, _⟩ => show win0_9.index t (0 : Fin 2) * 8192 + 1 * p.val = t.val * 8192 + p.val; rw [e90]; omega
    | ⟨1, _⟩ => show win0_9.index t (1 : Fin 2) * 80 + 1 * o.val = o.val; rw [e91]; omega
  show k0_pay1 (iblk m c 0 t) (iblk m c 1 t) (iblk m c 2 t) (iblk m c 3 t) (iblk m c 4 t) (iblk m c 5 t) (iblk m c 6 t) (iblk m c 7 t) (iblk m c 8 t) (ix2 p o)
    = arr9 m c (((cfg0.win 9).blk t).view.emb (ix2 p o))
  rw [hemb]
  refine (Payload.pay_apply (iblk m c 0 t) (iblk m c 1 t) (iblk m c 2 t) (iblk m c 3 t) (iblk m c 4 t) (iblk m c 5 t) (iblk m c 6 t) (iblk m c 7 t) (iblk m c 8 t) p o).trans ?_
  rw [iblk1_eq, iblk2_eq, iblk3_eq, iblk4_eq, iblk5_eq, iblk6_eq, iblk7_eq, iblk8_eq]
  unfold arr9 flat
  refine congrArg (fun f => mlpRow (mat (V m c main_arg1)) (row (V m c main_v1)) (mat (V m c main_arg3)) (row (V m c main_v2))
    (mat (V m c main_arg5)) (row (V m c main_v3)) (mat (V m c main_arg7)) (row (V m c main_v4)) f o) (funext fun k => ?_)
  exact iblk0_apply m c t p k _ rfl

/-- An index of the array is in point `t`'s block iff each coordinate is in the block's range on its axis. -/
theorem mem_blk9 (t : Fin cfg0.N) (i : S131072x80.Idx) :
    i ∈ ((cfg0.win 9).blk t).view.set ↔ ∀ a : Fin 2, win0_9.index t a * S8192x80.size a ≤ (i a).val ∧ (i a).val < win0_9.index t a * S8192x80.size a + S8192x80.size a := by
  show i ∈ ((View.whole main_v5).slice (win0_9.rect t)).set ↔ _
  rw [View.set_slice_whole, Rect.mem_set_unit]
  exact Iff.rfl

/-- The 16 blocks tile the output (row `r` is in block `r / 8192`), so the output array ends as `arr9`. -/
theorem final9 (c : Dev nD) : (dats m 0 c).arrAt 9 cfg0.N = arr9 m c :=
  (dats m 0 c).arrAt_eq_of_cover 9 (arr9 m c) (fun t _ => flushed9_eq m c t) fun i => by
    have hi0 : (i 0).val < 131072 := (i 0).isLt
    have hi1 : (i 1).val < 80 := (i 1).isLt
    have hN : cfg0.N = 16 := N_0
    obtain ⟨t, ht⟩ : ∃ t : Fin cfg0.N, t.val = (i 0).val / 8192 := ⟨⟨(i 0).val / 8192, by omega⟩, rfl⟩
    obtain ⟨e00, e01, e90, e91, f10, f11, f20, f21, f30, f31, f40, f41, f50, f51, f60, f61, f70, f71, f80, f81⟩ := idx_facts t
    refine ⟨t, flush0_9 t, ?_⟩
    rw [mem_blk9]
    intro a
    match a with
    | ⟨0, _⟩ => show win0_9.index t (0 : Fin 2) * 8192 ≤ (i 0).val ∧ (i 0).val < win0_9.index t (0 : Fin 2) * 8192 + 8192; rw [e90]; omega
    | ⟨1, _⟩ => show win0_9.index t (1 : Fin 2) * 80 ≤ (i 1).val ∧ (i 1).val < win0_9.index t (1 : Fin 2) * 80 + 80; rw [e91]; omega

/-! ## The reshapes before the region -/

/-- The flattened input as the region finds it: the input reshaped to [131072, 13]. -/
theorem V_main_v0 (c : Dev nD) : (V m c main_v0 : S131072x13.Idx → EReal)
    = shapeCast S131072x13 (m ((c : Thread nD τ).loc main_arg0)) shapeCasts_S64x2048x13_S131072x13 := by
  show StableHlo.after hostOps0 (fun b => m (c, b)) (Proc.devRef .tc main_v0) = _
  after_results
  rfl

/-- Row `2048·b + s` of the flattened input is row `(b, s)` of the input. -/
theorem V_main_v0_apply (c : Dev nD) (b : Fin 64) (s : Fin 2048) (k : Fin 13) (r : Fin 131072) (hr : r.val = b.val * 2048 + s.val) :
    (V m c main_v0 : S131072x13.Idx → EReal) (ix2 r k)
      = (m ((c : Thread nD τ).loc main_arg0) : S64x2048x13.Idx → EReal) (ix3 b s k) := by
  rw [V_main_v0]
  refine shapeCast_apply _ _ _ _ ?_
  show ((⟨3, ![64, 2048, 13]⟩ : Shape).rowMajor (ix3 b s k)).val = ((⟨2, ![131072, 13]⟩ : Shape).rowMajor (ix2 r k)).val
  rw [Shape.rowMajor_val_three, Shape.rowMajor_val_two]
  show (b.val * 2048 + s.val) * 13 + k.val = r.val * 13 + k.val
  rw [hr]

/-- `main_v1` as the region finds it is `main_arg2` given a leading unit axis; its one row is the bias vector. -/
theorem V_main_v1 (c : Dev nD) : (V m c main_v1 : S1x256.Idx → EReal)
    = shapeCast S1x256 (m ((c : Thread nD τ).loc main_arg2)) shapeCasts_S256_S1x256 := by
  show StableHlo.after hostOps0 (fun b => m (c, b)) (Proc.devRef .tc main_v1) = _
  after_results
  rfl
theorem row_main_v1 (c : Dev nD) : row (V m c main_v1 : S1x256.Idx → EReal) = vec (m ((c : Thread nD τ).loc main_arg2) : S256.Idx → EReal) := by
  funext j
  show (V m c main_v1 : S1x256.Idx → EReal) (ix2 (0 : Fin 1) j) = _
  rw [V_main_v1]
  exact shapeCast_a_1a_apply _ _ (0 : Fin 1) j

/-- `main_v2` as the region finds it is `main_arg4` given a leading unit axis; its one row is the bias vector. -/
theorem V_main_v2 (c : Dev nD) : (V m c main_v2 : S1x256.Idx → EReal)
    = shapeCast S1x256 (m ((c : Thread nD τ).loc main_arg4)) shapeCasts_S256_S1x256 := by
  show StableHlo.after hostOps0 (fun b => m (c, b)) (Proc.devRef .tc main_v2) = _
  after_results
  rfl
theorem row_main_v2 (c : Dev nD) : row (V m c main_v2 : S1x256.Idx → EReal) = vec (m ((c : Thread nD τ).loc main_arg4) : S256.Idx → EReal) := by
  funext j
  show (V m c main_v2 : S1x256.Idx → EReal) (ix2 (0 : Fin 1) j) = _
  rw [V_main_v2]
  exact shapeCast_a_1a_apply _ _ (0 : Fin 1) j

/-- `main_v3` as the region finds it is `main_arg6` given a leading unit axis; its one row is the bias vector. -/
theorem V_main_v3 (c : Dev nD) : (V m c main_v3 : S1x256.Idx → EReal)
    = shapeCast S1x256 (m ((c : Thread nD τ).loc main_arg6)) shapeCasts_S256_S1x256 := by
  show StableHlo.after hostOps0 (fun b => m (c, b)) (Proc.devRef .tc main_v3) = _
  after_results
  rfl
theorem row_main_v3 (c : Dev nD) : row (V m c main_v3 : S1x256.Idx → EReal) = vec (m ((c : Thread nD τ).loc main_arg6) : S256.Idx → EReal) := by
  funext j
  show (V m c main_v3 : S1x256.Idx → EReal) (ix2 (0 : Fin 1) j) = _
  rw [V_main_v3]
  exact shapeCast_a_1a_apply _ _ (0 : Fin 1) j

/-- `main_v4` as the region finds it is `main_arg8` given a leading unit axis; its one row is the bias vector. -/
theorem V_main_v4 (c : Dev nD) : (V m c main_v4 : S1x80.Idx → EReal)
    = shapeCast S1x80 (m ((c : Thread nD τ).loc main_arg8)) shapeCasts_S80_S1x80 := by
  show StableHlo.after hostOps0 (fun b => m (c, b)) (Proc.devRef .tc main_v4) = _
  after_results
  rfl
theorem row_main_v4 (c : Dev nD) : row (V m c main_v4 : S1x80.Idx → EReal) = vec (m ((c : Thread nD τ).loc main_arg8) : S80.Idx → EReal) := by
  funext j
  show (V m c main_v4 : S1x80.Idx → EReal) (ix2 (0 : Fin 1) j) = _
  rw [V_main_v4]
  exact shapeCast_a_1a_apply _ _ (0 : Fin 1) j

/-! ## The reshape after the region, and the result -/

/-- The result buffer after the run: the output array reshaped to [64, 2048, 80]. -/
theorem tail_eq (c : Dev nD) :
    Pipeline.afterTail₀ cfgs (dats m) 0 (V0 m) [hostOps1] c main_v6
      = shapeCast S64x2048x80 (arr9 m c) shapeCasts_S131072x80_S64x2048x80 := by
  have e : Pipeline.withArrays (cfgs 0).spec c (V0 m c) (fun w => (dats m 0 c).arrAt w (cfgs 0).N) (Proc.tc.devRef main_v5) = arr9 m c :=
    (Pipeline.withArrays_arr spec0 launch0.win.arr_inj c _ _ 9).trans (final9 m c)
  unfold Pipeline.afterTail₀
  show StableHlo.after hostOps1 _ (Proc.devRef .tc main_v6) = _
  after_results
  exact congrArg (fun A : S131072x80.Idx → EReal => shapeCast S64x2048x80 A shapeCasts_S131072x80_S64x2048x80) e

/-- The result buffer after the run is the specification's result of the argument arrays: entry `(b, s, o)` of the
    reshaped output is entry `(2048·b + s, o)` of the output array, the perceptron on row `2048·b + s` of the
    flattened input, which is row `(b, s)` of the input. -/
theorem kernel_result (c : Dev nD) :
    Pipeline.afterTail₀ cfgs (dats m) 0 (V0 m) [hostOps1] c main_v6
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [tail_eq]
  funext i
  obtain ⟨b, s, o, rfl⟩ : ∃ (b : Fin 64) (s : Fin 2048) (o : Fin 80), i = ix3 b s o := ⟨i 0, i 1, i 2, eq_ix3 i⟩
  have hr : b.val * 2048 + s.val < 131072 := by have := b.isLt; have := s.isLt; omega
  rw [shapeCast_apply (arr9 m c) shapeCasts_S131072x80_S64x2048x80 (ix3 b s o) (ix2 (⟨b.val * 2048 + s.val, hr⟩ : Fin 131072) o)
    (by rw [Shape.rowMajor_val_two, Shape.rowMajor_val_three]; rfl)]
  unfold arr9 flat result
  show mlpRow (mat (V m c main_arg1)) (row (V m c main_v1)) (mat (V m c main_arg3)) (row (V m c main_v2))
      (mat (V m c main_arg5)) (row (V m c main_v3)) (mat (V m c main_arg7)) (row (V m c main_v4))
      (fun k => (V m c main_v0 : S131072x13.Idx → EReal) (ix2 (⟨b.val * 2048 + s.val, hr⟩ : Fin 131072) k)) o
    = mlpRow (mat (m ((c.tc : Thread nD τ).loc main_arg1))) (vec (m ((c.tc : Thread nD τ).loc main_arg2)))
      (mat (m ((c.tc : Thread nD τ).loc main_arg3))) (vec (m ((c.tc : Thread nD τ).loc main_arg4)))
      (mat (m ((c.tc : Thread nD τ).loc main_arg5))) (vec (m ((c.tc : Thread nD τ).loc main_arg6)))
      (mat (m ((c.tc : Thread nD τ).loc main_arg7))) (vec (m ((c.tc : Thread nD τ).loc main_arg8)))
      (fun k => (m ((c.tc : Thread nD τ).loc main_arg0) : S64x2048x13.Idx → EReal) (ix3 b s k)) o
  rw [V_main_arg1, V_main_arg3, V_main_arg5, V_main_arg7, row_main_v1, row_main_v2, row_main_v3, row_main_v4]
  refine congrArg (fun f => mlpRow (mat (m ((c.tc : Thread nD τ).loc main_arg1))) (vec (m ((c.tc : Thread nD τ).loc main_arg2)))
      (mat (m ((c.tc : Thread nD τ).loc main_arg3))) (vec (m ((c.tc : Thread nD τ).loc main_arg4)))
      (mat (m ((c.tc : Thread nD τ).loc main_arg5))) (vec (m ((c.tc : Thread nD τ).loc main_arg6)))
      (mat (m ((c.tc : Thread nD τ).loc main_arg7))) (vec (m ((c.tc : Thread nD τ).loc main_arg8))) f o) (funext fun k => ?_)
  exact V_main_v0_apply m c b s k _ rfl

/-! ## The run -/

/-- Every weakly fair execution of the kernel's program terminates with the result buffer at the specification's
    result of the argument arrays, and the argument arrays unchanged. -/
theorem run : θ_run defs (onTc (τ := τ) (main (F := Ideal))) ⟨m, fun _ => 0, ρ⟩ (fun r => ∀ c : Dev nD,
      r.2.mem ((c.tc : Thread nD τ).loc main_v6) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v6 (Pipeline.mem_restRefs_of main_v6 (by decide) (by decide))).trans (kernel_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c)⟩) (run_main m ρ)

end Cert.KernelIdeal.Array

end
-- ==== Proof.lean ====
/-
  The kernel and its reference compute the same four-layer perceptron, row by row.

  Both programs send every row `(b, s)` of a [64, 2048, 13] input through three rectified dense layers of width 256
  and one plain dense layer of width 80. The kernel flattens the input to 131072 rows, runs 16 grid points of 8192
  rows each — four matrix products into zero accumulators, each followed by a broadcast bias row, the first three
  by a maximum with zero — and reshapes the [131072, 80] output back. The reference is four `dot_general`s over the
  last axis with biases broadcast over the first two axes. Over the extended reals both end with, at `(b, s, o)`,
  entry `o` of the perceptron on row `(b, s)`: the same sums over the same contracted index in the same order, so no
  law beyond re-indexing joins the two sides and the finiteness of the inputs is never used.

  The three frames: the two kernel programs' by their generated frame certificates, the reference's by its
  generated run with the result dropped. The idealization rewrote no operation, so it preserves the kernel
  trivially. The algebraic claim: the kernel's run ends with the result buffer at the specification's result of
  its arguments, the reference's run at the same function of its own arguments, and the arguments agree.
-/
import proofs.«145923_j16054587752846_2_alg».proof.Defs
import proofs.«145923_j16054587752846_2_alg».proof.Proof.Gen.Kernel
import proofs.«145923_j16054587752846_2_alg».proof.Proof.Gen.Kernel.Skeleton
import proofs.«145923_j16054587752846_2_alg».proof.Proof.Gen.Kernel.Launch
import proofs.«145923_j16054587752846_2_alg».proof.Proof.Gen.Kernel.Points
import proofs.«145923_j16054587752846_2_alg».proof.Proof.Gen.Kernel.Frame
import proofs.«145923_j16054587752846_2_alg».proof.Proof.Gen.KernelIdeal
import proofs.«145923_j16054587752846_2_alg».proof.Proof.Gen.KernelIdeal.Skeleton
import proofs.«145923_j16054587752846_2_alg».proof.Proof.Gen.KernelIdeal.Launch
import proofs.«145923_j16054587752846_2_alg».proof.Proof.Gen.KernelIdeal.Points
import proofs.«145923_j16054587752846_2_alg».proof.Proof.Gen.KernelIdeal.Frame
import proofs.«145923_j16054587752846_2_alg».proof.Proof.Gen.ReferenceIdeal
import proofs.«145923_j16054587752846_2_alg».proof.Proof.Gen.Pre_finite_inputs
import proofs.«145923_j16054587752846_2_alg».proof.Proof.Gen.ReferenceIdeal.Run
import proofs.«145923_j16054587752846_2_alg».proof.Proof.Gen.ReferenceIdeal.Read
import proofs.«145923_j16054587752846_2_alg».proof.Proof.MlpSpec
import proofs.«145923_j16054587752846_2_alg».proof.Proof.RefResult
import proofs.«145923_j16054587752846_2_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result at the perceptron applied row by row to arguments that agree. -/
theorem algebraic : Cert.algebraic_KernelIdeal_ReferenceIdeal := by
  intro m ρ m' ρ' _ hagree
  refine ⟨fun c => Cert.Mlp.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Array.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8⟩ := hagree c
  rw [(h c).1, Cert.ReferenceIdeal.Read.val_main_v18_eq, Cert.ReferenceIdeal.RefValue.result_eq,
    a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
